-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S16384 : Shape := ⟨1, ![16384]⟩
abbrev S512x4096 : Shape := ⟨2, ![512, 4096]⟩
abbrev S512 : Shape := ⟨1, ![512]⟩
abbrev S512x1024 : Shape := ⟨2, ![512, 1024]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512, .f32⟩
  | .local _ .vmem, ⟨4, _⟩ => ⟨S512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_off2 (c0_i32 : BitVec 32) : Fin 1 → Nat :=
  let c1024_i32 : BitVec 32 := 1024#32
  let v1 : BitVec 32 := Scalar.muli c0_i32 c1024_i32
  let v2 : BitVec 32 := v1
  let v5 : Index := Scalar.indexCast v2
  ![v5.toNat]
def k0_mult2 : BitVec 32 :=
  let c1_i32 : BitVec 32 := 1#32
  let c1024_i32_1 : BitVec 32 := 1024#32
  let v13 : BitVec 32 := Scalar.muli c1_i32 c1024_i32_1
  v13
def k0_mult3 : BitVec 32 :=
  let c2_i32 : BitVec 32 := 2#32
  let c1024_i32_4 : BitVec 32 := 1024#32
  let v25 : BitVec 32 := Scalar.muli c2_i32 c1024_i32_4
  v25
def k0_mult4 : BitVec 32 :=
  let c3_i32 : BitVec 32 := 3#32
  let c1024_i32_7 : BitVec 32 := 1024#32
  let v37 : BitVec 32 := Scalar.muli c3_i32 c1024_i32_7
  v37
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S512x1024 : 0 < S512x1024.numel
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  inb_S512_S512_0 : ∀ a, (![0] : Fin 1 → Nat) a + S512.size a ≤ S512.size a
  h_S512 : 0 < S512.numel
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_off2_inb : ∀ (r : Fin 4), ∀ a, (k0_off2 (BitVec.ofNat 32 r.val)) a + S1024.size a ≤ S4096.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩
abbrev S_ : Shape := ⟨0, ![]⟩
abbrev S16384 : Shape := ⟨1, ![16384]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel

variable [Facts₀]

class Facts : Prop extends Facts₀ where

variable [Facts]
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.WeightedSquares.lean ====
/-
  The function both programs compute, and the one law that joins their two arrangements of it.

  For a matrix `x` of 16384 rows and 4096 columns and a vector `w` of 4096 weights, entry `r` of the result is the
  weighted sum of the squares of row `r`:  ∑_f (x[r,f] · x[r,f]) · w[f]  over the extended reals.

  One program adds the 4096 terms of a row in one sum; the other cuts the columns into four runs of 1024, sums each
  run, and adds the four partial sums to a zero in turn. Addition of extended reals is commutative and associative
  (infinities included), so the two arrangements agree with no hypothesis on the entries.
-/
import Idealize.ShloMosaic.Lib.ValueIdx
import proofs.«177424_j27917287424359_2_alg».proof.Proof.LibERealMatrix

noncomputable section

namespace WeightedSquares

open Idealize.ShloMosaic Idealize.ShloMosaic.ValueIdx

/-- Entry `r` of the result: the sum over the columns `f` of `(x[r,f] · x[r,f]) · w[f]`. -/
def rowSums (x : (⟨2, ![16384, 4096]⟩ : Shape).Idx → EReal) (w : (⟨1, ![4096]⟩ : Shape).Idx → EReal) :
    (⟨1, ![16384]⟩ : Shape).Idx → EReal :=
  fun i => ∑ f : Fin 4096, x (ix2 (i 0) f) * x (ix2 (i 0) f) * w (ix1 f)

theorem rowSums_apply (x : (⟨2, ![16384, 4096]⟩ : Shape).Idx → EReal) (w : (⟨1, ![4096]⟩ : Shape).Idx → EReal)
    (r : Fin 16384) : rowSums x w (ix1 r) = ∑ f : Fin 4096, x (ix2 r f) * x (ix2 r f) * w (ix1 f) := rfl

/-- A sum over 4096 positions is a zero to which the sums over positions 0…1023, 1024…2047, 2048…3071 and
    3072…4095 are added in turn. Only commutativity and associativity of the addition are used. -/
theorem sum_four_runs {M : Type*} [AddCommMonoid M] (g : Fin 4096 → M) :
    (((0 + ∑ k : Fin 1024, g ⟨0 + k.val, by omega⟩) + ∑ k : Fin 1024, g ⟨1024 + k.val, by omega⟩)
        + ∑ k : Fin 1024, g ⟨2048 + k.val, by omega⟩) + ∑ k : Fin 1024, g ⟨3072 + k.val, by omega⟩
      = ∑ f : Fin 4096, g f := by
  have cut : ∑ f : Fin 4096, g f = ∑ c : Fin 4, ∑ k : Fin 1024, g (finProdFinEquiv (c, k)) :=
    LibERealMatrix.sum_fin_mul 4 1024 g
  rw [cut, Fin.sum_univ_four, zero_add]
  have run : ∀ (c : Fin 4) (o : Nat) (ho : o = 1024 * c.val) (h : ∀ k : Fin 1024, o + k.val < 4096),
      ∑ k : Fin 1024, g ⟨o + k.val, h k⟩ = ∑ k : Fin 1024, g (finProdFinEquiv (c, k)) := by
    intro c o ho h
    refine Finset.sum_congr rfl fun k _ => congrArg g (Fin.ext ?_)
    show o + k.val = k.val + 1024 * c.val
    omega
  rw [run 0 0 rfl, run 1 1024 rfl, run 2 2048 rfl, run 3 3072 rfl]

end WeightedSquares

end
-- ==== Proof.BodyValue.lean ====
/-
  What the kernel's body leaves in its output block, as a value.

  At one grid point the body holds a block `x` of 512 rows and 4096 columns and the whole weight vector `w`. It reads
  `x` and `w` four times, each time the next run of 1024 columns; for each run it squares the entries, multiplies by
  the weights of that run, and sums along the row; the four row-sum vectors are added, in order, to a zero vector,
  and the result, 512 numbers, is stored as the output block.

  Read over the extended reals, entry `p` of the stored block is therefore
      (((0 + S₀) + S₁) + S₂) + S₃,   S_c = ∑_{k < 1024} (x[p, 1024c + k] · x[p, 1024c + k]) · w[1024c + k],
  which is the weighted sum of squares of row `p` over all 4096 columns (`WeightedSquares.sum_four_runs`).
-/
import proofs.«177424_j27917287424359_2_alg».proof.Proof.Gen.KernelIdeal.Frame
import proofs.«177424_j27917287424359_2_alg».proof.Proof.WeightedSquares
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.BodyValue

open Cert.KernelIdeal Cert.KernelIdeal.Gen

variable {F : FTy → Type} [FloatOps F]

/-! ## The pieces of the block the body reads -/

/-- Columns `o … o + 1023` of a 512 × 4096 block, all 512 rows. -/
abbrev colRun (o : Nat) (h : o + 1024 ≤ 4096) : Rect S512x4096 :=
  Rect.unit (s := S512x4096) ![0, o] S512x1024.size (fun a => by
    match a with
    | ⟨0, _⟩ => show 0 + 512 ≤ 512; omega
    | ⟨1, _⟩ => show o + 1024 ≤ 4096; exact h)

/-- Positions `o … o + 1023` of the weight vector. -/
abbrev weightRun (o : Nat) (h : o + 1024 ≤ 4096) : Rect S4096 :=
  Rect.unit (s := S4096) ![o] S1024.size (fun a => by
    match a with
    | ⟨0, _⟩ => show o + 1024 ≤ 4096; exact h)

/-- The row sums of one run: square, weight, sum along the row (from a zero). -/
def runSums (xc : FVec F S512x1024 .f32) (wc : FVec F S1024 .f32) : FVec F S512 .f32 :=
  multiReduction .add [1] S512
    (mulf (mulf xc xc) (broadcastTo S512x1024 (shapeCast S1x1024 wc shapeCasts_S1024_S1x1024) broadcasts_S1x1024_S512x1024))
    0x00000000#32 reduces_S512x1024_S512 (.inl rfl) rfl

/-- The zero vector the accumulation starts from. -/
abbrev zeroRow : FVec F S512 .f32 := broadcast S512 (Scalar.ofBits .f32 0x00000000#32)

/-- The stored value as a function of the eight loads: the four runs' row sums added to zero in order. -/
theorem payload_eq (v4 : Vec F S512x1024 .f32) (v6 : Vec F S1024 .f32) (v16 : Vec F S512x1024 .f32) (v18 : Vec F S1024 .f32)
    (v28 : Vec F S512x1024 .f32) (v30 : Vec F S1024 .f32) (v40 : Vec F S512x1024 .f32) (v42 : Vec F S1024 .f32) :
    k0_pay1 (k0_pay2 v4 v6 v16 v18 v28 v30) v40 v42
      = addf (addf (addf (addf zeroRow (runSums v4 v6)) (runSums v16 v18)) (runSums v28 v30)) (runSums v40 v42) := rfl

theorem hz : (![0] : Fin 1 → Nat) = fun _ => 0 := funext fun a => by fin_cases a; rfl

/-- What the body leaves in the output block, from the block `x0` of the matrix and the weights `x1` it holds:
    its one store covers the block, and its eight loads read the four runs of `x0` and of `x1`. -/
theorem stored_block (c : Dev nD) (i : grid0.Coords) (a1 : Memref sig .tc .vmem S512x4096 .f32) (h1 : a1.IsWhole)
    (a2 : Memref sig .tc .vmem S4096 .f32) (h2 : a2.IsWhole) (a3 : Memref sig .tc .vmem S512 .f32) (h3 : a3.IsWhole)
    (x0 : Vec F S512x4096 .f32) (x1 : Vec F S4096 .f32) :
    out0_A_2 c i a1 h1 a2 h2 a3 h3 x0 x1
      = addf (addf (addf (addf zeroRow
          (runSums (View.ld x0 (colRun 0 (by omega))) (View.ld x1 (weightRun 0 (by omega)))))
          (runSums (View.ld x0 (colRun 1024 (by omega))) (View.ld x1 (weightRun 1024 (by omega)))))
          (runSums (View.ld x0 (colRun 2048 (by omega))) (View.ld x1 (weightRun 2048 (by omega)))))
          (runSums (View.ld x0 (colRun 3072 (by omega))) (View.ld x1 (weightRun 3072 (by omega)))) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  exact payload_eq _ _ _ _ _ _ _ _

/-! ## The stored block over the extended reals -/

/-- Entry `(p, k)` of a run of columns is entry `(p, o + k)` of the block. -/
theorem ld_colRun (x0 : Vec Ideal S512x4096 .f32) (o : Nat) (h : o + 1024 ≤ 4096) (p : Fin 512) (k : Fin 1024) :
    View.ld x0 (colRun o h) (ix2 p k) = x0 (ix2 p ⟨o + k.val, by omega⟩) := by
  show x0 _ = x0 _
  refine congrArg x0 (funext fun a => Fin.ext ?_)
  match a with
  | ⟨0, _⟩ => show 0 + 1 * p.val = p.val; omega
  | ⟨1, _⟩ => show o + 1 * k.val = o + k.val; omega

/-- Entry `k` of a run of weights is weight `o + k`. -/
theorem ld_weightRun (x1 : Vec Ideal S4096 .f32) (o : Nat) (h : o + 1024 ≤ 4096) (k : Fin 1024) :
    View.ld x1 (weightRun o h) (ix1 k) = x1 (ix1 ⟨o + k.val, by omega⟩) := by
  show x1 _ = x1 _
  refine congrArg x1 (funext fun a => Fin.ext ?_)
  match a with
  | ⟨0, _⟩ => show o + 1 * k.val = o + k.val; omega

/-- Over the extended reals, entry `p` of a run's row sums is `∑_k (xc[p,k] · xc[p,k]) · wc[k]`: the lane
    reduction from a zero is the plain sum, the weights' row is spread over all 512 rows. -/
theorem runSums_apply (xc : FVec Ideal S512x1024 .f32) (wc : FVec Ideal S1024 .f32) (p : Fin 512) :
    runSums xc wc (ix1 p) = ∑ k : Fin 1024, xc (ix2 p k) * xc (ix2 p k) * wc (ix1 k) := by
  unfold runSums
  refine (Ideal.multiReduction_add_single _ 0x00000000#32 reduces_S512x1024_S512 (.inl rfl) rfl (ix1 p)).trans ?_
  have term : ∀ k : Fin 1024,
      (mulf (mulf xc xc) (broadcastTo S512x1024 (shapeCast S1x1024 wc shapeCasts_S1024_S1x1024) broadcasts_S1x1024_S512x1024))
        (reduces_S512x1024_S512.lift (ix1 p) k) = xc (ix2 p k) * xc (ix2 p k) * wc (ix1 k) := by
    intro k
    have e : reduces_S512x1024_S512.lift (ix1 p) k = ix2 p k :=
      funext fun a => Fin.ext (by match a with | ⟨0, _⟩ => rfl | ⟨1, _⟩ => rfl)
    rw [e]
    show xc (ix2 p k) * xc (ix2 p k) * broadcastTo S512x1024 (shapeCast S1x1024 wc shapeCasts_S1024_S1x1024) broadcasts_S1x1024_S512x1024 (ix2 p k) = _
    rw [broadcastTo_1b_ab_apply, shapeCast_a_1a_apply]
  exact Finset.sum_congr rfl fun k _ => term k

/-- Entry `p` of the row sums of the run of columns `o … o + 1023`, in the block's and the weights' own numbering. -/
theorem runSums_run_apply (x0 : Vec Ideal S512x4096 .f32) (x1 : Vec Ideal S4096 .f32) (o : Nat) (h : o + 1024 ≤ 4096)
    (p : Fin 512) :
    (runSums (F := Ideal) (View.ld x0 (colRun o h)) (View.ld x1 (weightRun o h)) (ix1 p) : EReal)
      = ∑ k : Fin 1024, (x0 (ix2 p ⟨o + k.val, by omega⟩) : EReal) * x0 (ix2 p ⟨o + k.val, by omega⟩)
          * x1 (ix1 ⟨o + k.val, by omega⟩) :=
  (runSums_apply _ _ p).trans (Finset.sum_congr rfl fun k _ => by
    rw [ld_colRun x0 o h p k, ld_weightRun x1 o h k])

/-- Entry `p` of the stored block is the weighted sum of the squares of row `p` of the block the body holds. -/
theorem stored_apply (c : Dev nD) (i : grid0.Coords) (a1 : Memref sig .tc .vmem S512x4096 .f32) (h1 : a1.IsWhole)
    (a2 : Memref sig .tc .vmem S4096 .f32) (h2 : a2.IsWhole) (a3 : Memref sig .tc .vmem S512 .f32) (h3 : a3.IsWhole)
    (x0 : Vec Ideal S512x4096 .f32) (x1 : Vec Ideal S4096 .f32) (p : Fin 512) :
    (out0_A_2 (F := Ideal) c i a1 h1 a2 h2 a3 h3 x0 x1 (ix1 p) : EReal)
      = ∑ f : Fin 4096, (x0 (ix2 p f) : EReal) * x0 (ix2 p f) * x1 (ix1 f) := by
  rw [stored_block]
  show (((Ideal.ofBits .f32 0x00000000#32 + runSums _ _ (ix1 p)) + runSums _ _ (ix1 p)) + runSums _ _ (ix1 p)) + runSums _ _ (ix1 p) = _
  rw [runSums_run_apply x0 x1 0, runSums_run_apply x0 x1 1024, runSums_run_apply x0 x1 2048,
    runSums_run_apply x0 x1 3072, Ideal.ofBits_zero_f32]
  exact WeightedSquares.sum_four_runs fun f => (x0 (ix2 p f) : EReal) * x0 (ix2 p f) * x1 (ix1 f)

end Cert.KernelIdeal.BodyValue

end
-- ==== Proof.ArrayValue.lean ====
/-
  From the blocks to the whole result.

  The grid has 32 points. At point `t` the kernel holds rows `512 t … 512 t + 511` of the matrix (all 4096 columns)
  and the whole weight vector, and writes back entries `512 t … 512 t + 511` of the result. Entry `p` of that block
  is the weighted sum of squares of row `p` of the block held, that is of row `512 t + p` of the matrix: each point
  writes the restriction of ONE function of the two arguments (`WeightedSquares.rowSums`) to its block. The 32
  blocks tile the 16384 entries (entry `r` lies in the block of point `r / 512`), so after the run the result array
  is that function.
-/
import proofs.«177424_j27917287424359_2_alg».proof.Proof.Gen.KernelIdeal.Value
import proofs.«177424_j27917287424359_2_alg».proof.Proof.BodyValue
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen

variable (m : (ℓ : Loc nD τ sig) → Buf (Elt Ideal) ℓ) (ρ : Dev nD → PrngReg)

/-- The printed index maps over the grid: at point `t` the matrix window is at block row `t`, block column 0; the
    weights' window at block 0; the result's window at block `t`. -/
theorem index_facts : ∀ t : Fin cfg0.N, win0_0.index t (0 : Fin 2) = t.val ∧ win0_0.index t (1 : Fin 2) = 0
    ∧ win0_1.index t (0 : Fin 1) = 0 ∧ win0_2.index t (0 : Fin 1) = t.val :=
  (by decide +kernel : ∀ t : Fin grid0.N, _)

/-- Entry `(p, f)` of the matrix block held at point `t` is entry `(512 t + p, f)` of the matrix. -/
theorem matrix_block_apply (c : Dev nD) (t : Fin cfg0.N) (p : Fin 512) (f : Fin 4096) (r : Fin 16384)
    (hr : r.val = 512 * t.val + p.val) :
    (iblk m c 0 t : Vec Ideal S512x4096 .f32) (ix2 p f) = (V m c main_arg0 : S16384x4096.Idx → Elt Ideal .f32) (ix2 r f) := by
  obtain ⟨e0, e1, -, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * f.val = f.val; rw [e1]; omega

/-- The weights' block held at every point is the whole weight vector. -/
theorem weight_block_apply (c : Dev nD) (t : Fin cfg0.N) (f : Fin 4096) :
    (iblk m c 1 t : Vec Ideal S4096 .f32) (ix1 f) = (V m c main_arg1 : S4096.Idx → Elt Ideal .f32) (ix1 f) := by
  obtain ⟨-, -, e2, -⟩ := index_facts t
  unfold iblk
  rw [View.read_apply]
  show V m c main_arg1 _ = V m c main_arg1 _
  refine congrArg (V m c main_arg1) (funext fun a => Fin.ext ?_)
  match a with
  | ⟨0, _⟩ => show win0_1.index t (0 : Fin 1) * 4096 + 1 * f.val = f.val; rw [e2]; omega

/-- What point `t` writes back is block `t` of the weighted sums of squares of the arguments' rows. -/
theorem flushed_eq (c : Dev nD) (t : Fin cfg0.N) :
    (dats m 0 c).flushed 2 t
      = ((cfg0.win 2).blk t).view.read (Elt Ideal) (WeightedSquares.rowSums (V m c main_arg0) (V m c main_arg1)) := by
  rw [Value.flushed2_A]
  obtain ⟨-, -, -, e3⟩ := index_facts t
  have ht : t.val < 32 := by have hN : cfg0.N = 32 := N_0; have := t.isLt; omega
  show (out0_A_2 (F := Ideal) c (grid0.coords t) (ms0_0 t) (hs0_0 t) (ms0_1 t) (hs0_1 t) (ms0_2 t) (hs0_2 t) (iblk m c 0 t) (iblk m c 1 t) : S512.Idx → EReal)
    = fun j : S512.Idx => WeightedSquares.rowSums (V m c main_arg0) (V m c main_arg1) (((cfg0.win 2).blk t).view.emb j)
  funext j
  obtain ⟨p, rfl⟩ : ∃ p : Fin 512, j = ix1 p := ⟨j 0, eq_ix1 j⟩
  have hrow : ((cfg0.win 2).blk t).view.emb (ix1 p) = ix1 (⟨512 * t.val + p.val, by omega⟩ : Fin 16384) := by
    funext a; apply Fin.ext
    match a with
    | ⟨0, _⟩ => show win0_2.index t (0 : Fin 1) * 512 + 1 * p.val = 512 * t.val + p.val; rw [e3]; omega
  rw [hrow, WeightedSquares.rowSums_apply]
  refine (BodyValue.stored_apply c (grid0.coords t) (ms0_0 t) (hs0_0 t) (ms0_1 t) (hs0_1 t) (ms0_2 t) (hs0_2 t)
    (iblk m c 0 t) (iblk m c 1 t) p).trans ?_
  refine Finset.sum_congr rfl fun f _ => ?_
  rw [matrix_block_apply m c t p f ⟨512 * t.val + p.val, by omega⟩ rfl, weight_block_apply m c t f]

/-- An entry of the result is in point `t`'s block exactly when it lies in `512 t … 512 t + 511`. -/
theorem mem_block (t : Fin cfg0.N) (i : S16384.Idx) :
    i ∈ ((cfg0.win 2).blk t).view.set
      ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- Every entry of the result is written back by some point: entry `r` by point `r / 512`. -/
theorem covered (i : S16384.Idx) :
    ∃ t : Fin cfg0.N, (cfg0.win 2).flush t = true ∧ i ∈ ((cfg0.win 2).blk t).view.set := by
  have hN : cfg0.N = 32 := N_0
  have hi : (i 0).val < 16384 := (i 0).isLt
  refine ⟨⟨(i 0).val / 512, by rw [hN]; omega⟩, flush0_2 _, ?_⟩
  rw [mem_block]
  intro a
  obtain ⟨-, -, -, e3⟩ := index_facts ⟨(i 0).val / 512, by rw [hN]; omega⟩
  match a with
  | ⟨0, _⟩ =>
    show win0_2.index ⟨(i 0).val / 512, _⟩ (0 : Fin 1) * 512 ≤ (i 0).val
      ∧ (i 0).val < win0_2.index ⟨(i 0).val / 512, _⟩ (0 : Fin 1) * 512 + 512
    rw [e3]
    show (i 0).val / 512 * 512 ≤ (i 0).val ∧ (i 0).val < (i 0).val / 512 * 512 + 512
    omega

/-- After the run the result array holds the weighted sums of squares of the rows of the arguments. -/
theorem final (c : Dev nD) :
    (dats m 0 c).arrAt 2 cfg0.N
      = WeightedSquares.rowSums (m ((c : Thread nD τ).loc main_arg0)) (m ((c : Thread nD τ).loc main_arg1)) :=
  (dats m 0 c).arrAt_eq_of_cover 2 (WeightedSquares.rowSums (V m c main_arg0) (V m c main_arg1))
    (fun t _ => flushed_eq m c t) covered

/-- The kernel's run: the result array at the weighted sums of squares, the arguments unchanged. -/
theorem run : θ_run defs (onTc (τ := τ) (main (F := Ideal))) ⟨m, fun _ => 0, ρ⟩ fun r => ∀ c : Dev nD,
      r.2.mem ((c : Thread nD τ).loc main_v0)
        = WeightedSquares.rowSums (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference computes the weighted sums of squares.

  The reference squares the matrix entrywise, spreads the weight vector along the rows, multiplies, and sums each
  row from a zero. Read at entry `r` over the extended reals this is  0 + ∑_f (x[r,f] · x[r,f]) · w[f].
-/
import proofs.«177424_j27917287424359_2_alg».proof.Proof.Gen.ReferenceIdeal.Read
import proofs.«177424_j27917287424359_2_alg».proof.Proof.WeightedSquares
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The reference's result, as a function of its two arguments, is the weighted sum of squares of each row. -/
theorem reference_eq (x0 : (⟨S16384x4096, .f32⟩ : BufTy).Contents (Elt Ideal)) (x1 : (⟨S4096, .f32⟩ : BufTy).Contents (Elt Ideal)) :
    val_main_v4 (F := Ideal) x0 x1 = WeightedSquares.rowSums x0 x1 := by
  funext i
  obtain ⟨r, rfl⟩ : ∃ r : Fin 16384, i = ix1 r := ⟨i 0, eq_ix1 i⟩
  rw [val_main_v4_apply, WeightedSquares.rowSums_apply]
  have hzero : (val_main_cst (F := Ideal)) (Shape.Idx.first h_S_) = 0 := Ideal.ofBits_zero_f32
  rw [hzero, zero_add]
  refine Finset.sum_congr rfl fun f _ => ?_
  have e1 : idx_main_v4 (ix1 r) f = ix2 r f :=
    funext fun a => Fin.ext (by match a with | ⟨0, _⟩ => rfl | ⟨1, _⟩ => rfl)
  have e2 : idx_main_v1 (idx_main_v2 (ix2 r f)) = ix1 f :=
    funext fun a => Fin.ext (by match a with | ⟨0, _⟩ => rfl)
  rw [e1, val_main_v3_apply, val_main_v0_apply, val_main_v2_apply, val_main_v1_apply, e2]
  rfl

end Cert.ReferenceIdeal.RefValue

end
-- ==== Proof.lean ====
/-
  Both programs compute, for a matrix `x` of 16384 rows and 4096 columns and a vector `w` of 4096 weights, the
  weighted sum of the squares of each row:   out[r] = ∑_f (x[r,f] · x[r,f]) · w[f].

  The kernel walks the rows in 32 blocks of 512; inside a block it cuts the columns into four runs of 1024, forms
  each run's row sums and adds them in order to a zero (Proof/BodyValue.lean); the 32 blocks tile the result
  (Proof/ArrayValue.lean). The reference forms the 4096 products of a row and sums them in one sum from a zero
  (Proof/ReferenceValue.lean). Over the extended reals addition is commutative and associative at every value,
  infinities included, so the two arrangements of the sum agree (Proof/WeightedSquares.lean) and the finiteness of
  the inputs is never used. The idealization rewrote nothing, so its conjunct is trivial.

  The three frames are the generated ones: the two kernels' frame certificates, and the reference's run with
  its result dropped.
-/
import proofs.«177424_j27917287424359_2_alg».proof.Defs
import proofs.«177424_j27917287424359_2_alg».proof.Proof.Gen.Kernel
import proofs.«177424_j27917287424359_2_alg».proof.Proof.Gen.Kernel.Skeleton
import proofs.«177424_j27917287424359_2_alg».proof.Proof.Gen.Kernel.Launch
import proofs.«177424_j27917287424359_2_alg».proof.Proof.Gen.Kernel.Points
import proofs.«177424_j27917287424359_2_alg».proof.Proof.Gen.Kernel.Frame
import proofs.«177424_j27917287424359_2_alg».proof.Proof.Gen.KernelIdeal
import proofs.«177424_j27917287424359_2_alg».proof.Proof.Gen.KernelIdeal.Skeleton
import proofs.«177424_j27917287424359_2_alg».proof.Proof.Gen.KernelIdeal.Launch
import proofs.«177424_j27917287424359_2_alg».proof.Proof.Gen.KernelIdeal.Points
import proofs.«177424_j27917287424359_2_alg».proof.Proof.Gen.KernelIdeal.Frame
import proofs.«177424_j27917287424359_2_alg».proof.Proof.Gen.ReferenceIdeal
import proofs.«177424_j27917287424359_2_alg».proof.Proof.Gen.KernelIdeal.Value
import proofs.«177424_j27917287424359_2_alg».proof.Proof.Gen.ReferenceIdeal.Run
import proofs.«177424_j27917287424359_2_alg».proof.Proof.Gen.ReferenceIdeal.Read
import proofs.«177424_j27917287424359_2_alg».proof.Proof.Gen.Pre_finite_inputs
import proofs.«177424_j27917287424359_2_alg».proof.Proof.ArrayValue
import proofs.«177424_j27917287424359_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the two arguments, both programs end with the result array holding the weighted
    sums of squares of the rows of those arguments. -/
theorem algebraic : Cert.algebraic_KernelIdeal_ReferenceIdeal := by
  intro m ρ m' ρ' _ hagree
  refine ⟨fun c => WeightedSquares.rowSums (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
